-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "c_5_6" .f32 0x3F555555#32 ((5 / 6 : ℝ) : EReal)
  ∧ IdealRules.named_const.Statement Cert.KernelIdeal.κ "inv_6" .f32 0x3E2AAAAB#32 ((1 / 6 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128 .f32) (main_arg3 : FVec F S1600000 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S1x128 : Shape := ⟨2, ![1, 128]⟩

abbrev nBuf : Space → Nat
  | .hbm => 34
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S100000, .f32⟩
  | .hbm, ⟨13, _⟩ => ⟨S100000x1, .f32⟩
  | .hbm, ⟨14, _⟩ => ⟨S100000x128, .f32⟩
  | .hbm, ⟨15, _⟩ => ⟨S100000x128, .f32⟩
  | .hbm, ⟨16, _⟩ => ⟨S1600000x1, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1x128, .f32⟩
  | .hbm, ⟨33, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S4000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S100000x128, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S100000x1, .f32⟩
  | .hbm, ⟨15, _⟩ => ⟨S100000x128, .f32⟩
  | .hbm, ⟨16, _⟩ => ⟨S100000x128, .f32⟩
  | .hbm, ⟨17, _⟩ => ⟨S1600000x1, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.BlockTerms.lean ====
/-
  What one grid point computes, read entry by entry over the extended reals.

  The first kernel's row block is a plain matrix product: entry (p, q) of the block is the sum over k of
  x(p, k) · w(k, q) (the change of float format on the way in is the identity here, and the product accumulates
  into zero); its second output scales row p of that product by the row's reciprocal degree d(p, 0).
  The second kernel's row block is the blend (5/6) · s + (1/6) · a + bias, the two coefficients being the
  named rationals and the bias row the same for every row of the block.
-/
import proofs.«102144_j52613349376871_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.BlockTerms

open Cert.KernelIdeal Cert.KernelIdeal.Gen Idealize.ShloMosaic Idealize.ShloMosaic.ValueIdx

/-- The contraction record of the row block's product. -/
abbrev blockDot : DotDims S4000x128 S128x128 S4000x128 := dot_S4000x128_S128x128_S4000x128_1_0_0_1_n_n

theorem lhs0 (i : S4000x128.Idx) (q : blockDot.contr.Idx) : (blockDot.lhsIdx i q 0).val = (i 0).val := by
  unfold DotDims.lhsIdx
  rw [dif_neg (show ¬(0 : Fin S4000x128.rank) ∈ blockDot.lhsBatch by decide), dif_pos (show (0 : Fin S4000x128.rank) ∈ blockDot.lhsNonContracting by decide)]
  rfl
theorem lhs1 (i : S4000x128.Idx) (q : blockDot.contr.Idx) : (blockDot.lhsIdx i q 1).val = (q ⟨0, by decide⟩).val :=
  blockDot.lhsIdx_val_of_single rfl i q
theorem rhs0 (i : S4000x128.Idx) (q : blockDot.contr.Idx) : (blockDot.rhsIdx i q 0).val = (q ⟨0, by decide⟩).val :=
  blockDot.rhsIdx_val_of_single rfl i q
theorem rhs1 (i : S4000x128.Idx) (q : blockDot.contr.Idx) : (blockDot.rhsIdx i q 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- Entry (p, q) of a row block's product: the sum over k of x(p, k) · w(k, q). -/
theorem product_apply (x : Vec Ideal S4000x128 .f32) (w : Vec Ideal S128x128 .f32) (p : Fin 4000) (q : Fin 128) :
    k0_pay1 (F := Ideal) x w (ix2 p q) = ∑ k : Fin 128, x (ix2 p k) * w (ix2 k q) := by
  unfold k0_pay1
  refine (Ideal.matmul_constant_zero_apply blockDot none _ _ (ix2 p q)).trans ?_
  rw [← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs0 _ _
    | ⟨1, _⟩ => exact (lhs1 _ _).trans hk)
  have er : blockDot.rhsIdx (ix2 p q) ((contrEquiv1 blockDot 128 rfl rfl).symm k) = ix2 k q := funext fun a => Fin.ext (by
    match a with
    | ⟨0, _⟩ => exact (rhs0 _ _).trans hk
    | ⟨1, _⟩ => exact rhs1 _ _)
  rw [el, er]
  rfl

/-- Entry (p, q) of the scaled block: the product's entry times the row's scale d(p, 0). -/
theorem scaled_apply (x : Vec Ideal S4000x128 .f32) (w : Vec Ideal S128x128 .f32) (d : Vec Ideal S4000x1 .f32)
    (p : Fin 4000) (q : Fin 128) :
    k0_pay2 (F := Ideal) x w d (ix2 p q) = k0_pay1 (F := Ideal) x w (ix2 p q) * d (ix2 p (0 : Fin 1)) := by
  unfold k0_pay2
  show k0_pay1 (F := Ideal) x w (ix2 p q) * _ = _
  refine congrArg (k0_pay1 (F := Ideal) x w (ix2 p q) * ·) ?_
  rw [shapeCast_self]
  refine broadcastTo_apply d broadcasts_S4000x1_S4000x128 (ix2 p q) (ix2 p (0 : Fin 1)) fun a => ?_
  match a with
  | ⟨0, _⟩ => show p.val = if (4000 : Nat) = 1 then 0 else p.val; rw [if_neg (by decide)]
  | ⟨1, _⟩ => show (0 : Nat) = if (1 : Nat) = 1 then 0 else q.val; rw [if_pos rfl]

/-- The two named coefficients are the rationals 5/6 and 1/6. -/
theorem five_sixths : Named.named (F := Ideal) κ "c_5_6" (φ := .f32) 0x3F555555#32 = ((5 / 6 : ℝ) : EReal) :=
  IdealRules.named_const.ideal_named_scalar _ _ _ _ rfl
theorem one_sixth : Named.named (F := Ideal) κ "inv_6" (φ := .f32) 0x3E2AAAAB#32 = ((1 / 6 : ℝ) : EReal) :=
  IdealRules.named_const.ideal_named_scalar _ _ _ _ rfl

/-- Entry (p, q) of the blended block: (5/6) · s(p, q) + (1/6) · a(p, q) + b(0, q). -/
theorem blend_apply (s a : Vec Ideal S4000x128 .f32) (b : Vec Ideal S1x128 .f32) (p : Fin 4000) (q : Fin 128) :
    k1_pay1 (F := Ideal) s a b (ix2 p q)
      = ((5 / 6 : ℝ) : EReal) * s (ix2 p q) + ((1 / 6 : ℝ) : EReal) * a (ix2 p q) + b (ix2 (0 : Fin 1) q) := by
  unfold k1_pay1
  simp only [shapeCast_self]
  show Named.named (F := Ideal) κ "c_5_6" (φ := .f32) 0x3F555555#32 * s (ix2 p q)
      + Named.named (F := Ideal) κ "inv_6" (φ := .f32) 0x3E2AAAAB#32 * a (ix2 p q)
      + broadcastTo S4000x128 b broadcasts_S1x128_S4000x128 (ix2 p q) = _
  rw [five_sixths, one_sixth, broadcastTo_1b_ab_apply]

end Cert.KernelIdeal.BlockTerms

end
-- ==== Proof.Features.lean ====
/-
  The three whole arrays the two kernels produce, as functions of the arrays they read, entry by entry over the
  extended reals: the projected features x · w; the same scaled row by row by a column of reciprocal degrees; and
  the blend (5/6) · s + (1/6) · a + bias of a feature array, an aggregated array and a bias row.
-/
import proofs.«102144_j52613349376871_1_alg».proof.KernelIdeal
import Idealize.ShloMosaic.Lib.ValueIdx
import Idealize.ShloMosaic.PureOps.Ideal

noncomputable section

namespace Cert.KernelIdeal.Features

open Cert.KernelIdeal Idealize.ShloMosaic Idealize.ShloMosaic.ValueIdx

/-- The row of an entry of a node-by-feature array. -/
abbrev row (i : S100000x128.Idx) : Fin 100000 := ⟨(i 0).val, (i 0).isLt⟩
/-- Its column. -/
abbrev col (i : S100000x128.Idx) : Fin 128 := ⟨(i 1).val, (i 1).isLt⟩

/-- The projected features: entry (r, c) is the sum over k of x(r, k) · w(k, c). -/
def support (x : S100000x128.Idx → EReal) (w : S128x128.Idx → EReal) : S100000x128.Idx → EReal :=
  fun i => ∑ k : Fin 128, x (ix2 (row i) k) * w (ix2 k (col i))

/-- The projected features with row r scaled by d(r, 0). -/
def scaled (x : S100000x128.Idx → EReal) (w : S128x128.Idx → EReal) (d : S100000x1.Idx → EReal) : S100000x128.Idx → EReal :=
  fun i => support x w i * d (ix2 (row i) (0 : Fin 1))

/-- The blend of a feature array s, an aggregated array a and a bias row b. -/
def blend (s a : S100000x128.Idx → EReal) (b : S1x128.Idx → EReal) : S100000x128.Idx → EReal :=
  fun i => ((5 / 6 : ℝ) : EReal) * s i + ((1 / 6 : ℝ) : EReal) * a i + b (ix2 (0 : Fin 1) (col i))

end Cert.KernelIdeal.Features

end
-- ==== Proof.FirstRegion.lean ====
/-
  What the first kernel leaves in its two result arrays, for any contents V of the buffers when the kernel is entered.

  The grid has 25 points; point t reads rows 4000 t … 4000 t + 3999 of x and of the degree column, and the whole of w,
  and writes back the same rows of both results. Entry (p, q) of the block a point writes back is entry
  (4000 t + p, q) of the whole-array function (the product, or the scaled product), and the 25 row blocks cover the
  array, so each result array ends holding that function.
-/
import proofs.«102144_j52613349376871_1_alg».proof.Proof.Gen.KernelIdeal.Frame
import proofs.«102144_j52613349376871_1_alg».proof.Proof.BlockTerms
import proofs.«102144_j52613349376871_1_alg».proof.Proof.Features
import Idealize.ShloMosaic.Lib.Pipeline.Value

noncomputable section

namespace Cert.KernelIdeal.FirstRegion

open Cert.KernelIdeal Cert.KernelIdeal.Gen Cert.KernelIdeal.Features Cert.KernelIdeal.BlockTerms
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- Where each window's block sits at point t: the row-blocked windows at block row t, the weight at its one block. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Entry (p, k) of x's block at point t is entry (4000 t + p, k) of x. -/
theorem xBlock (c : Dev nD) (t : Fin cfg0.N) (p : Fin 4000) (k : Fin 128) (r : Fin 100000) (hr : r.val = t.val * 4000 + p.val) :
    (iblk0 V c 0 t : Vec Ideal S4000x128 .f32) (ix2 p k) = (V c main_arg0 : S100000x128.Idx → EReal) (ix2 r k) := by
  obtain ⟨e0, e1, -⟩ := blockIndex t
  unfold iblk0
  rw [View.read_apply]
  show (V c main_arg0 : S100000x128.Idx → EReal) _ = _
  congr 1
  funext a
  apply Fin.ext
  match a with
  | ⟨0, _⟩ => show win0_0.index t 0 * 4000 + 1 * p.val = r.val; rw [e0, hr]; omega
  | ⟨1, _⟩ => show win0_0.index t 1 * 128 + 1 * k.val = k.val; rw [e1]; omega

/-- The weight's block at every point is the weight. -/
theorem wBlock (c : Dev nD) (t : Fin cfg0.N) (k q : Fin 128) :
    (iblk0 V c 1 t : Vec Ideal S128x128 .f32) (ix2 k q) = (V c main_arg1 : S128x128.Idx → EReal) (ix2 k q) := by
  obtain ⟨-, -, e2, e3, -⟩ := blockIndex t
  unfold iblk0
  rw [View.read_apply]
  show (V c main_arg1 : S128x128.Idx → EReal) _ = _
  congr 1
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

/-- Entry (p, 0) of the degree column's block at point t is entry (4000 t + p, 0) of the column. -/
theorem dBlock (c : Dev nD) (t : Fin cfg0.N) (p : Fin 4000) (r : Fin 100000) (hr : r.val = t.val * 4000 + p.val) :
    (iblk0 V c 2 t : Vec Ideal S4000x1 .f32) (ix2 p (0 : Fin 1)) = (V c main_v5 : S100000x1.Idx → EReal) (ix2 r (0 : Fin 1)) := by
  obtain ⟨-, -, -, -, e4, e5, -⟩ := blockIndex t
  unfold iblk0
  rw [View.read_apply]
  show (V c main_v5 : S100000x1.Idx → EReal) _ = _
  congr 1
  funext a
  apply Fin.ext
  match a with
  | ⟨0, _⟩ => show win0_2.index t 0 * 4000 + 1 * p.val = r.val; rw [e4, hr]; omega
  | ⟨1, _⟩ => show win0_2.index t 1 * 1 + 1 * 0 = 0; rw [e5]

/-- What point t writes back to the first result is its rows of the projected features. -/
theorem flushed_support (c : Dev nD) (t : Fin cfg0.N) :
    (dat0 V c).flushed 3 t = ((cfg0.win 3).blk t).view.read (Elt Ideal) (support (V c main_arg0) (V c main_arg1)) := by
  show (cfg0.win 3).cut (grid0.coords t) ((dat0 V c).after 3 t) = _
  rw [after0_3]
  unfold out0_3
  rw [View.canon_unit_zero zeros]
  simp only [View.ld_unit_zero (S := S4000x128) zeros, View.ld_unit_zero (S := S128x128) zeros]
  obtain ⟨-, -, -, -, -, -, e6, e7, -⟩ := blockIndex t
  have hN : cfg0.N = 25 := N_0
  have ht : t.val < 25 := hN ▸ t.isLt
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (ix2 p q)
    = support (V c main_arg0) (V c main_arg1) (((cfg0.win 3).blk t).view.emb (ix2 p q))
  refine (product_apply (iblk0 V c 0 t) (iblk0 V c 1 t) p q).trans ?_
  unfold support
  refine Finset.sum_congr rfl fun k _ => ?_
  have hp : p.val < 4000 := p.isLt
  refine congrArg₂ (· * ·) (xBlock V c t p k _ ?_) ((wBlock V c t k q).trans (congrArg _ ?_))
  · show win0_3.index t 0 * 4000 + 1 * p.val = _; rw [e6]; omega
  · refine congrArg (ix2 k) (Fin.ext ?_)
    show q.val = win0_3.index t 1 * 128 + 1 * q.val; rw [e7]; omega

/-- What point t writes back to the second result is its rows of the scaled features. -/
theorem flushed_scaled (c : Dev nD) (t : Fin cfg0.N) :
    (dat0 V c).flushed 4 t
      = ((cfg0.win 4).blk t).view.read (Elt Ideal) (scaled (V c main_arg0) (V c main_arg1) (V c main_v5)) := by
  show (cfg0.win 4).cut (grid0.coords t) ((dat0 V c).after 4 t) = _
  rw [after0_4]
  unfold out0_4
  rw [View.canon_unit_zero zeros]
  simp only [View.ld_unit_zero (S := S4000x128) zeros, View.ld_unit_zero (S := S128x128) zeros,
    View.ld_unit_zero (S := S4000x1) zeros]
  obtain ⟨-, -, -, -, -, -, -, -, e8, e9⟩ := blockIndex t
  have hN : cfg0.N = 25 := N_0
  have ht : t.val < 25 := hN ▸ t.isLt
  funext j
  obtain ⟨p, q, rfl⟩ : ∃ (p : Fin 4000) (q : Fin 128), j = ix2 p q := ⟨j 0, j 1, eq_ix2 j⟩
  show k0_pay2 (F := Ideal) (iblk0 V c 0 t) (iblk0 V c 1 t) (iblk0 V c 2 t) (ix2 p q)
    = scaled (V c main_arg0) (V c main_arg1) (V c main_v5) (((cfg0.win 4).blk t).view.emb (ix2 p q))
  refine (scaled_apply (iblk0 V c 0 t) (iblk0 V c 1 t) (iblk0 V c 2 t) p q).trans ?_
  unfold scaled
  have hp : p.val < 4000 := p.isLt
  refine congrArg₂ (· * ·) ((product_apply (iblk0 V c 0 t) (iblk0 V c 1 t) p q).trans ?_) (dBlock V c t p _ ?_)
  · unfold support
    refine Finset.sum_congr rfl fun k _ => ?_
    refine congrArg₂ (· * ·) (xBlock V c t p k _ ?_) ((wBlock V c t k q).trans (congrArg _ ?_))
    · show win0_4.index t 0 * 4000 + 1 * p.val = _; rw [e8]; omega
    · refine congrArg (ix2 k) (Fin.ext ?_)
      show q.val = win0_4.index t 1 * 128 + 1 * q.val; rw [e9]; omega
  · show win0_4.index t 0 * 4000 + 1 * p.val = _; rw [e8]; omega

/-- An entry is in point t's block of the first result when its row is among the block's rows. -/
theorem mem_block3 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v6_0).slice (win0_3.rect t)).set ↔ _
  rw [View.set_slice_whole, Rect.mem_set_unit]
  exact Iff.rfl
/-- The same for the second result. -/
theorem mem_block4 (t : Fin cfg0.N) (i : S100000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v6_1).slice (win0_4.rect t)).set ↔ _
  rw [View.set_slice_whole, Rect.mem_set_unit]
  exact Iff.rfl

/-- Row r lies in the block of point r / 4000: the 25 row blocks cover the first result. -/
theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, e6, e7, -⟩ := blockIndex t
  refine ⟨t, flush0_3 t, ?_⟩
  rw [mem_block3]
  intro a
  match a with
  | ⟨0, _⟩ => show win0_3.index t 0 * 4000 ≤ (i 0).val ∧ (i 0).val < win0_3.index t 0 * 4000 + 4000; rw [e6, ht]; omega
  | ⟨1, _⟩ => show win0_3.index t 1 * 128 ≤ (i 1).val ∧ (i 1).val < win0_3.index t 1 * 128 + 128; rw [e7]; omega
/-- And the second. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, e8, e9⟩ := blockIndex t
  refine ⟨t, flush0_4 t, ?_⟩
  rw [mem_block4]
  intro a
  match a with
  | ⟨0, _⟩ => show win0_4.index t 0 * 4000 ≤ (i 0).val ∧ (i 0).val < win0_4.index t 0 * 4000 + 4000; rw [e8, ht]; omega
  | ⟨1, _⟩ => show win0_4.index t 1 * 128 ≤ (i 1).val ∧ (i 1).val < win0_4.index t 1 * 128 + 128; rw [e9]; omega

/-- After the first kernel its first result array holds the projected features of the x and w it was entered with, -/
theorem final_support (c : Dev nD) : (dat0 V c).arrAt 3 cfg0.N = support (V c main_arg0) (V c main_arg1) :=
  (dat0 V c).arrAt_eq_of_cover 3 (support (V c main_arg0) (V c main_arg1)) (fun t _ => flushed_support V c t) cover3

/-- and its second the same scaled row by row by the degree column it was entered with. -/
theorem final_scaled (c : Dev nD) :
    (dat0 V c).arrAt 4 cfg0.N = scaled (V c main_arg0) (V c main_arg1) (V c main_v5) :=
  (dat0 V c).arrAt_eq_of_cover 4 (scaled (V c main_arg0) (V c main_arg1) (V c main_v5)) (fun t _ => flushed_scaled V c t) cover4

end Cert.KernelIdeal.FirstRegion

end
-- ==== Proof.SecondRegion.lean ====
/-
  What the second kernel leaves in its result array, for any contents V of the buffers when the kernel is entered.

  Point t of its 25 reads rows 4000 t … 4000 t + 3999 of the feature array and of the aggregated array, and the bias
  row, and writes back the same rows of the result: entry (p, q) of that block is the blend at (4000 t + p, q). The
  25 row blocks cover the array, so the result array ends holding the blend of the three arrays.
-/
import proofs.«102144_j52613349376871_1_alg».proof.Proof.Gen.KernelIdeal.Frame
import proofs.«102144_j52613349376871_1_alg».proof.Proof.BlockTerms
import proofs.«102144_j52613349376871_1_alg».proof.Proof.Features
import Idealize.ShloMosaic.Lib.Pipeline.Value

noncomputable section

namespace Cert.KernelIdeal.SecondRegion

open Cert.KernelIdeal Cert.KernelIdeal.Gen Cert.KernelIdeal.Features Cert.KernelIdeal.BlockTerms
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- Where each window's block sits at point t: the row-blocked windows at block row t, the bias at its one block. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, q) of the feature array's block at point t is its entry (4000 t + p, q). -/
theorem sBlock (c : Dev nD) (t : Fin cfg1.N) (p : Fin 4000) (q : Fin 128) (i : S100000x128.Idx)
    (h0 : (i 0).val = t.val * 4000 + p.val) (h1 : (i 1).val = q.val) :
    (iblk1 V c 0 t : Vec Ideal S4000x128 .f32) (ix2 p q) = (V c main_v6_0 : S100000x128.Idx → EReal) i := by
  obtain ⟨e0, e1, -⟩ := blockIndex t
  unfold iblk1
  rw [View.read_apply]
  show (V c main_v6_0 : S100000x128.Idx → EReal) _ = _
  congr 1
  funext a
  apply Fin.ext
  match a with
  | ⟨0, _⟩ => show win1_0.index t 0 * 4000 + 1 * p.val = (i 0).val; rw [e0, h0]; omega
  | ⟨1, _⟩ => show win1_0.index t 1 * 128 + 1 * q.val = (i 1).val; rw [e1, h1]; omega

/-- The same for the aggregated array. -/
theorem aBlock (c : Dev nD) (t : Fin cfg1.N) (p : Fin 4000) (q : Fin 128) (i : S100000x128.Idx)
    (h0 : (i 0).val = t.val * 4000 + p.val) (h1 : (i 1).val = q.val) :
    (iblk1 V c 1 t : Vec Ideal S4000x128 .f32) (ix2 p q) = (V c main_v19 : S100000x128.Idx → EReal) i := by
  obtain ⟨-, -, e2, e3, -⟩ := blockIndex t
  unfold iblk1
  rw [View.read_apply]
  show (V c main_v19 : S100000x128.Idx → EReal) _ = _
  congr 1
  funext a
  apply Fin.ext
  match a with
  | ⟨0, _⟩ => show win1_1.index t 0 * 4000 + 1 * p.val = (i 0).val; rw [e2, h0]; omega
  | ⟨1, _⟩ => show win1_1.index t 1 * 128 + 1 * q.val = (i 1).val; rw [e3, h1]; omega

/-- The bias row's block at every point is the bias row. -/
theorem bBlock (c : Dev nD) (t : Fin cfg1.N) (q : Fin 128) :
    (iblk1 V c 2 t : Vec Ideal S1x128 .f32) (ix2 (0 : Fin 1) q) = (V c main_v20 : S1x128.Idx → EReal) (ix2 (0 : Fin 1) q) := by
  obtain ⟨-, -, -, -, e4, e5, -⟩ := blockIndex t
  unfold iblk1
  rw [View.read_apply]
  show (V c main_v20 : S1x128.Idx → EReal) _ = _
  congr 1
  funext a
  apply Fin.ext
  match a with
  | ⟨0, _⟩ => show win1_2.index t 0 * 1 + 1 * 0 = 0; rw [e4]
  | ⟨1, _⟩ => show win1_2.index t 1 * 128 + 1 * q.val = q.val; rw [e5]; omega

/-- What point t writes back is its rows of the blend. -/
theorem flushed_blend (c : Dev nD) (t : Fin cfg1.N) :
    (dat1 V c).flushed 3 t
      = ((cfg1.win 3).blk t).view.read (Elt Ideal) (blend (V c main_v6_0) (V c main_v19) (V c main_v20)) := by
  show (cfg1.win 3).cut (grid1.coords t) ((dat1 V c).after 3 t) = _
  rw [after1_3]
  unfold out1_3
  rw [View.canon_unit_zero zeros]
  simp only [View.ld_unit_zero (S := S4000x128) zeros, View.ld_unit_zero (S := S1x128) zeros]
  obtain ⟨-, -, -, -, -, -, e6, e7⟩ := blockIndex t
  funext j
  obtain ⟨p, q, rfl⟩ : ∃ (p : Fin 4000) (q : Fin 128), j = ix2 p q := ⟨j 0, j 1, eq_ix2 j⟩
  show k1_pay1 (F := Ideal) (iblk1 V c 0 t) (iblk1 V c 1 t) (iblk1 V c 2 t) (ix2 p q)
    = blend (V c main_v6_0) (V c main_v19) (V c main_v20) (((cfg1.win 3).blk t).view.emb (ix2 p q))
  refine (blend_apply (iblk1 V c 0 t) (iblk1 V c 1 t) (iblk1 V c 2 t) p q).trans ?_
  unfold blend
  have h0 : ((((cfg1.win 3).blk t).view.emb (ix2 p q) : S100000x128.Idx) 0).val = t.val * 4000 + p.val := by
    show win1_3.index t 0 * 4000 + 1 * p.val = _; rw [e6]; omega
  have h1 : ((((cfg1.win 3).blk t).view.emb (ix2 p q) : S100000x128.Idx) 1).val = q.val := by
    show win1_3.index t 1 * 128 + 1 * q.val = _; rw [e7]; omega
  refine congrArg₂ (· + ·) (congrArg₂ (· + ·) (congrArg (((5 / 6 : ℝ) : EReal) * ·) (sBlock V c t p q _ h0 h1))
    (congrArg (((1 / 6 : ℝ) : EReal) * ·) (aBlock V c t p q _ h0 h1))) ((bBlock V c t q).trans (congrArg _ ?_))
  exact congrArg (ix2 (0 : Fin 1)) (Fin.ext h1.symm)

/-- An entry is in point t's block of the result when its row is among the block's rows. -/
theorem mem_block (t : Fin cfg1.N) (i : S100000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v21).slice (win1_3.rect t)).set ↔ _
  rw [View.set_slice_whole, Rect.mem_set_unit]
  exact Iff.rfl

/-- Row r lies in the block of point r / 4000: the 25 row blocks cover the result. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, e6, e7⟩ := blockIndex t
  refine ⟨t, flush1_3 t, ?_⟩
  rw [mem_block]
  intro a
  match a with
  | ⟨0, _⟩ => show win1_3.index t 0 * 4000 ≤ (i 0).val ∧ (i 0).val < win1_3.index t 0 * 4000 + 4000; rw [e6, ht]; omega
  | ⟨1, _⟩ => show win1_3.index t 1 * 128 ≤ (i 1).val ∧ (i 1).val < win1_3.index t 1 * 128 + 128; rw [e7]; omega

/-- After the second kernel its result array holds the blend of the three arrays it was entered with. -/
theorem final_blend (c : Dev nD) :
    (dat1 V c).arrAt 3 cfg1.N = blend (V c main_v6_0) (V c main_v19) (V c main_v20) :=
  (dat1 V c).arrAt_eq_of_cover 3 (blend (V c main_v6_0) (V c main_v19) (V c main_v20)) (fun t _ => flushed_blend V c t) cover

end Cert.KernelIdeal.SecondRegion

end
-- ==== Proof.HostStretches.lean ====
/-
  The plain array operations around the two kernels, read at any contents W of the buffers they start from.

  Before the first kernel: the degree of a node is the sum of the edge weights whose column index names it (a
  scatter-add into zeros), its reciprocal is taken, and the vector is laid out as a column. Between the kernels:
  the scaled features are gathered at each edge's column index (a negative index wrapped once), multiplied by the
  edge's weight, and summed into the edge's row index (a scatter-add into zeros); the bias is laid out as a row.
  Neither stretch writes an argument array, the first result of the first kernel, or anything the other reads
  besides these.
-/
import proofs.«102144_j52613349376871_1_alg».proof.Proof.Gen.KernelIdeal.Launch
import Idealize.ShloMosaic.Lib.StableHlo.Run

noncomputable section

namespace Cert.KernelIdeal.HostStretches

open Cert.KernelIdeal Cert.KernelIdeal.Gen Idealize.ShloMosaic Idealize.ShloMosaic.TcCoe Idealize.SL.Sem
open Idealize.ShloMosaic.StableHlo

/-- The column of reciprocal degrees of edge weights `vals` with column indices `cols`. -/
def degreeColumn (vals : S1600000.Idx → EReal) (cols : S1600000.Idx → BitVec 32) : S100000x1.Idx → EReal :=
  shapeCast S100000x1
    (Host.divf (F := Ideal) (broadcastInDim S100000 ![] bcast_S_S100000 (constant (F := Ideal) S_ .f32 0x3F800000#32))
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 cols) vals))
    shapeCasts_S100000_S100000x1

/-- The weighted aggregation of a node-by-feature array `f` along the edges (`vals`, `rows`, `cols`). -/
def aggregate (f : S100000x128.Idx → EReal) (vals : S1600000.Idx → EReal) (rows cols : S1600000.Idx → BitVec 32) :
    S100000x128.Idx → EReal :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 rows)
    (mulf (F := Ideal)
      (broadcastInDim S1600000x128 ![0, 1] bcast_S1600000x1_S1600000x128_0_1
        (broadcastInDim S1600000x1 ![0] bcast_S1600000_S1600000x1_0 vals))
      (Host.gather gather_S100000x128_S1600000x1_S1600000x128_1_0_n_n_0_1_1128 f
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

/-- The bias laid out as a row. -/
def biasRow (b : S128.Idx → EReal) : S1x128.Idx → EReal := shapeCast S1x128 b shapeCasts_S128_S1x128

variable (W : Valuation τ sig (Elt Ideal))

/-! ## Before the first kernel -/

theorem before_degree : StableHlo.after (hostOps0 (F := Ideal)) W (Proc.devRef .tc main_v5)
    = degreeColumn (W (Proc.devRef .tc main_arg3)) (W (Proc.devRef .tc main_arg5)) := by
  after_results_simp
  rfl

theorem before_x : StableHlo.after (hostOps0 (F := Ideal)) W (Proc.devRef .tc main_arg0) = W (Proc.devRef .tc main_arg0) := by
  after_results_simp
theorem before_w : StableHlo.after (hostOps0 (F := Ideal)) W (Proc.devRef .tc main_arg1) = W (Proc.devRef .tc main_arg1) := by
  after_results_simp
theorem before_bias : StableHlo.after (hostOps0 (F := Ideal)) W (Proc.devRef .tc main_arg2) = W (Proc.devRef .tc main_arg2) := by
  after_results_simp
theorem before_vals : StableHlo.after (hostOps0 (F := Ideal)) W (Proc.devRef .tc main_arg3) = W (Proc.devRef .tc main_arg3) := by
  after_results_simp
theorem before_rows : StableHlo.after (hostOps0 (F := Ideal)) W (Proc.devRef .tc main_arg4) = W (Proc.devRef .tc main_arg4) := by
  after_results_simp
theorem before_cols : StableHlo.after (hostOps0 (F := Ideal)) W (Proc.devRef .tc main_arg5) = W (Proc.devRef .tc main_arg5) := by
  after_results_simp

/-! ## Between the kernels -/

theorem between_aggregate : StableHlo.after (hostOps1 (F := Ideal)) W (Proc.devRef .tc main_v19)
    = aggregate (W (Proc.devRef .tc main_v6_1)) (W (Proc.devRef .tc main_arg3)) (W (Proc.devRef .tc main_arg4))
        (W (Proc.devRef .tc main_arg5)) := by
  after_results_simp
  rfl

theorem between_bias : StableHlo.after (hostOps1 (F := Ideal)) W (Proc.devRef .tc main_v20)
    = biasRow (W (Proc.devRef .tc main_arg2)) := by
  after_results_simp
  rfl

theorem between_support : StableHlo.after (hostOps1 (F := Ideal)) W (Proc.devRef .tc main_v6_0) = W (Proc.devRef .tc main_v6_0) := by
  after_results_simp

end Cert.KernelIdeal.HostStretches

end
-- ==== Proof.Result.lean ====
/-
  The whole program's result array as one function of its six argument arrays: the blend of the projected features,
  of the scaled features aggregated along the edges, and of the bias row.
-/
import proofs.«102144_j52613349376871_1_alg».proof.Proof.Features
import proofs.«102144_j52613349376871_1_alg».proof.Proof.HostStretches

noncomputable section

namespace Cert.KernelIdeal.Result

open Cert.KernelIdeal Cert.KernelIdeal.Features Cert.KernelIdeal.HostStretches Idealize.ShloMosaic

/-- The program's result as a function of x, w, the bias, and the edges' weights, row indices and column indices. -/
def result (x : S100000x128.Idx → EReal) (w : S128x128.Idx → EReal) (b : S128.Idx → EReal)
    (vals : S1600000.Idx → EReal) (rows cols : S1600000.Idx → BitVec 32) : S100000x128.Idx → EReal :=
  blend (support x w) (aggregate (scaled x w (degreeColumn vals cols)) vals rows cols) (biasRow b)

end Cert.KernelIdeal.Result

end
-- ==== Proof.KernelValue.lean ====
/-
  The whole program's result array as one function of its six argument arrays.

  Following the buffers through the program: the first kernel is entered with the arguments as launched and the column
  of reciprocal degrees; it leaves the projected features and their scaling; the stretch between the kernels aggregates
  the scaled features along the edges and lays the bias out as a row, the arguments and the projected features
  untouched; the second kernel blends the projected features, the aggregate and the bias row into the result.
-/
import proofs.«102144_j52613349376871_1_alg».proof.Proof.Gen.KernelIdeal.Frame
import proofs.«102144_j52613349376871_1_alg».proof.Proof.FirstRegion
import proofs.«102144_j52613349376871_1_alg».proof.Proof.SecondRegion
import proofs.«102144_j52613349376871_1_alg».proof.Proof.HostStretches
import proofs.«102144_j52613349376871_1_alg».proof.Proof.Result

noncomputable section

namespace Cert.KernelIdeal.KernelValue

open Cert.KernelIdeal Cert.KernelIdeal.Gen Cert.KernelIdeal.Features Cert.KernelIdeal.HostStretches Cert.KernelIdeal.Result
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The first kernel's entry contents -/

theorem entry1_x (c : Dev nD) : V1 m ρ c main_arg0 = m ((c : Thread nD τ).loc main_arg0) :=
  before_x (W0 m ρ c)
theorem entry1_w (c : Dev nD) : V1 m ρ c main_arg1 = m ((c : Thread nD τ).loc main_arg1) :=
  before_w (W0 m ρ c)
theorem entry1_degree (c : Dev nD) : V1 m ρ c main_v5
    = degreeColumn (m ((c : Thread nD τ).loc main_arg3)) (m ((c : Thread nD τ).loc main_arg5)) :=
  before_degree (W0 m ρ c)

/-! ## After the first kernel -/

theorem exit1_support (c : Dev nD) : W2 m ρ c (Proc.devRef .tc main_v6_0)
    = support (m ((c : Thread nD τ).loc main_arg0)) (m ((c : Thread nD τ).loc main_arg1)) := by
  refine (W2_arr m ρ c 3).trans ?_
  rw [FirstRegion.final_support (V1 m ρ) c, entry1_x, entry1_w]

theorem exit1_scaled (c : Dev nD) : W2 m ρ c (Proc.devRef .tc main_v6_1)
    = scaled (m ((c : Thread nD τ).loc main_arg0)) (m ((c : Thread nD τ).loc main_arg1))
        (degreeColumn (m ((c : Thread nD τ).loc main_arg3)) (m ((c : Thread nD τ).loc main_arg5))) := by
  refine (W2_arr m ρ c 4).trans ?_
  rw [FirstRegion.final_scaled (V1 m ρ) c, entry1_x, entry1_w, entry1_degree]

theorem exit1_bias (c : Dev nD) : W2 m ρ c (Proc.devRef .tc main_arg2) = m ((c : Thread nD τ).loc main_arg2) :=
  (W2_of_ne m ρ c main_arg2 (by decide)).trans (before_bias (W0 m ρ c))
theorem exit1_vals (c : Dev nD) : W2 m ρ c (Proc.devRef .tc main_arg3) = m ((c : Thread nD τ).loc main_arg3) :=
  (W2_of_ne m ρ c main_arg3 (by decide)).trans (before_vals (W0 m ρ c))
theorem exit1_rows (c : Dev nD) : W2 m ρ c (Proc.devRef .tc main_arg4) = m ((c : Thread nD τ).loc main_arg4) :=
  (W2_of_ne m ρ c main_arg4 (by decide)).trans (before_rows (W0 m ρ c))
theorem exit1_cols (c : Dev nD) : W2 m ρ c (Proc.devRef .tc main_arg5) = m ((c : Thread nD τ).loc main_arg5) :=
  (W2_of_ne m ρ c main_arg5 (by decide)).trans (before_cols (W0 m ρ c))

/-! ## The second kernel's entry contents -/

theorem entry2_support (c : Dev nD) : V3 m ρ c main_v6_0
    = support (m ((c : Thread nD τ).loc main_arg0)) (m ((c : Thread nD τ).loc main_arg1)) :=
  (between_support (W2 m ρ c)).trans (exit1_support m ρ c)

theorem entry2_aggregate (c : Dev nD) : V3 m ρ c main_v19
    = aggregate (scaled (m ((c : Thread nD τ).loc main_arg0)) (m ((c : Thread nD τ).loc main_arg1))
          (degreeColumn (m ((c : Thread nD τ).loc main_arg3)) (m ((c : Thread nD τ).loc main_arg5))))
        (m ((c : Thread nD τ).loc main_arg3)) (m ((c : Thread nD τ).loc main_arg4)) (m ((c : Thread nD τ).loc main_arg5)) := by
  refine (between_aggregate (W2 m ρ c)).trans ?_
  rw [exit1_scaled, exit1_vals, exit1_rows, exit1_cols]

theorem entry2_bias (c : Dev nD) : V3 m ρ c main_v20 = biasRow (m ((c : Thread nD τ).loc main_arg2)) := by
  refine (between_bias (W2 m ρ c)).trans ?_
  rw [exit1_bias]

/-! ## The result -/

/-- The result array at the end of the program is `result` of the arguments as launched. -/
theorem final_result (c : Dev nD) : W4 m ρ c (Proc.devRef .tc main_v21)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W4_arr m ρ c 3).trans ?_
  rw [SecondRegion.final_blend (V3 m ρ) c, entry2_support, entry2_aggregate, entry2_bias]
  rfl

end Cert.KernelIdeal.KernelValue

end
-- ==== Proof.Blend.lean ====
/-
  The arithmetic that joins the two programs, on the extended reals.

  The reference forms (s + ½ (½ s + ½ a)) / (3/2); the kernel forms (5/6) s + (1/6) a. For real s and a these are
  one number: (s + s/4 + a/4) · (2/3) = (5/6) s + (1/6) a. Every coefficient is positive, so the same holds at the
  infinities: if either of s, a is −∞ both sides are −∞ (a sum with −∞ is −∞), and otherwise if either is +∞ both
  sides are +∞. Division by the real 3/2 is multiplication by 2/3 everywhere.
-/
import Idealize.ShloMosaic.PureOps.Ideal

noncomputable section

namespace Cert.Blend

open Idealize.ShloMosaic

/-- The word 0x3F000000 is one half. -/
theorem ofBits_half : Ideal.ofBits .f32 0x3F000000#32 = ((1 / 2 : ℝ) : EReal) := by
  simp [Ideal.ofBits, Ideal.ieee, -EReal.coe_mul]; norm_num

/-- The word 0x3FC00000 is three halves. -/
theorem ofBits_three_halves : Ideal.ofBits .f32 0x3FC00000#32 = ((3 / 2 : ℝ) : EReal) := by
  simp [Ideal.ofBits, Ideal.ieee, -EReal.coe_mul]; norm_num

/-- (5/6) s + (1/6) a = (s + ½ (½ s + ½ a)) / (3/2) for all extended reals s and a. -/
theorem blend_law (s a : EReal) :
    ((5 / 6 : ℝ) : EReal) * s + ((1 / 6 : ℝ) : EReal) * a
      = Ideal.div (s + ((1 / 2 : ℝ) : EReal) * (((1 / 2 : ℝ) : EReal) * s + ((1 / 2 : ℝ) : EReal) * a)) ((3 / 2 : ℝ) : EReal) := by
  rw [Ideal.div_coe (by norm_num : (3 / 2 : ℝ) ≠ 0)]
  have h56 : (0 : ℝ) < 5 / 6 := by norm_num
  have h16 : (0 : ℝ) < 1 / 6 := by norm_num
  have h12 : (0 : ℝ) < 1 / 2 := by norm_num
  have h23 : (0 : ℝ) < 1 / (3 / 2) := by norm_num
  induction s using EReal.rec with
  | bot =>
    rw [EReal.coe_mul_bot_of_pos h56, EReal.bot_add, EReal.bot_add, EReal.bot_mul_coe_of_pos h23]
  | top =>
    induction a using EReal.rec with
    | bot =>
      rw [EReal.coe_mul_bot_of_pos h16, EReal.add_bot, EReal.coe_mul_bot_of_pos h12, EReal.add_bot,
        EReal.coe_mul_bot_of_pos h12, EReal.add_bot, EReal.bot_mul_coe_of_pos h23]
    | top =>
      rw [EReal.coe_mul_top_of_pos h56, EReal.coe_mul_top_of_pos h16, EReal.coe_mul_top_of_pos h12, EReal.top_add_top,
        EReal.coe_mul_top_of_pos h12, EReal.top_add_top, EReal.top_mul_coe_of_pos h23]
    | coe a =>
      rw [EReal.coe_mul_top_of_pos h56, EReal.coe_mul_top_of_pos h12, ← EReal.coe_mul, ← EReal.coe_mul,
        EReal.top_add_coe, EReal.top_add_coe, EReal.coe_mul_top_of_pos h12, EReal.top_add_top,
        EReal.top_mul_coe_of_pos h23]
  | coe s =>
    induction a using EReal.rec with
    | bot =>
      rw [EReal.coe_mul_bot_of_pos h16, EReal.add_bot, EReal.coe_mul_bot_of_pos h12, EReal.add_bot,
        EReal.coe_mul_bot_of_pos h12, EReal.add_bot, EReal.bot_mul_coe_of_pos h23]
    | top =>
      rw [EReal.coe_mul_top_of_pos h16, EReal.coe_mul_top_of_pos h12, ← EReal.coe_mul, ← EReal.coe_mul,
        EReal.coe_add_top, EReal.coe_add_top, EReal.coe_mul_top_of_pos h12, EReal.coe_add_top,
        EReal.top_mul_coe_of_pos h23]
    | coe a =>
      simp only [← EReal.coe_mul, ← EReal.coe_add]
      congr 1
      ring

end Cert.Blend

end
-- ==== Proof.Bridge.lean ====
/-
  The kernel program's result is the reference's, as functions of the six argument arrays.

  The reference's matrix product is the projected features, read as the same sum over k. Its degree scaling
  d(r) · s(r, c) is the kernel's s(r, c) · d(r, 0): the reciprocal-degree vector and its column layout hold the same
  numbers, and the product of two extended reals commutes. So both programs aggregate the same array along the same
  edges. What is left is, entry by entry, the law (5/6) s + (1/6) a = (s + ½ (½ s + ½ a)) / (3/2), and the same bias
  entry added on both sides.
-/
import proofs.«102144_j52613349376871_1_alg».proof.Proof.Result
import proofs.«102144_j52613349376871_1_alg».proof.Proof.Blend
import proofs.«102144_j52613349376871_1_alg».proof.Proof.Gen.ReferenceIdeal.Read
import Idealize.ShloMosaic.Lib.Pipeline.Value
import Idealize.ShloMosaic.Lib.ValueIdx

noncomputable section

namespace Cert.Bridge

open Idealize.ShloMosaic Idealize.ShloMosaic.ValueIdx
open Cert.KernelIdeal.Features Cert.KernelIdeal.HostStretches Cert.KernelIdeal.Result
open Cert.ReferenceIdeal.Read

variable (x : Cert.KernelIdeal.S100000x128.Idx → EReal) (w : Cert.KernelIdeal.S128x128.Idx → EReal)
  (b : Cert.KernelIdeal.S128.Idx → EReal) (vals : Cert.KernelIdeal.S1600000.Idx → EReal)
  (rows cols : Cert.KernelIdeal.S1600000.Idx → BitVec 32)

/-- The reference's matrix product is the projected features. -/
theorem product_eq : val_main_v0 (F := Ideal) x w = support x w := by
  funext i
  rw [val_main_v0_apply]
  unfold support
  refine Finset.sum_congr rfl fun k _ => ?_
  have el : lidx_main_v0 i k = ix2 (row i) k := funext fun a => Fin.ext (by
    match a with
    | ⟨0, _⟩ => rfl
    | ⟨1, _⟩ => rfl)
  have er : ridx_main_v0 i k = ix2 k (col i) := funext fun a => Fin.ext (by
    match a with
    | ⟨0, _⟩ => rfl
    | ⟨1, _⟩ => rfl)
  rw [el, er]

/-- Entry (r, 0) of the column of reciprocal degrees is entry r of the reference's reciprocal-degree vector. -/
theorem degree_eq (r : Fin 100000) :
    degreeColumn vals cols (ix2 r (0 : Fin 1)) = val_main_v5 (F := Ideal) vals cols (ix1 r) := by
  unfold degreeColumn
  refine (shapeCast_apply _ Cert.KernelIdeal.Facts₀.shapeCasts_S100000_S100000x1 (ix2 r (0 : Fin 1)) (ix1 r) ?_).trans ?_
  · rw [Shape.rowMajor_val_one, Shape.rowMajor_val_two]
    show r.val = r.val * 1 + 0
    omega
  · rfl

/-- The reference's scaled features are the kernel's. -/
theorem scaled_eq : val_main_v8 (F := Ideal) x w vals cols = scaled x w (degreeColumn vals cols) := by
  funext i
  rw [val_main_v8_apply, val_main_v7_apply, val_main_v6_apply, product_eq]
  unfold scaled
  rw [degree_eq]
  show val_main_v5 (F := Ideal) vals cols (idx_main_v6 (idx_main_v7 i)) * support x w i
    = support x w i * val_main_v5 (F := Ideal) vals cols (ix1 (row i))
  rw [mul_comm]
  refine congrArg (support x w i * val_main_v5 (F := Ideal) vals cols ·) (funext fun a => ?_)
  match a with
  | ⟨0, _⟩ => rfl

/-- So the two programs aggregate the same array along the same edges. -/
theorem aggregate_eq : val_main_v21 (F := Ideal) x w vals rows cols
    = aggregate (scaled x w (degreeColumn vals cols)) vals rows cols := by
  unfold val_main_v21 val_main_v18 val_main_v16
  rw [scaled_eq]
  rfl

/-- Entry (0, c) of the bias row is entry c of the bias. -/
theorem bias_eq (c : Fin 128) : biasRow b (ix2 (0 : Fin 1) c) = b (ix1 c) := by
  unfold biasRow
  refine shapeCast_apply _ Cert.KernelIdeal.Facts₀.shapeCasts_S128_S1x128 (ix2 (0 : Fin 1) c) (ix1 c) ?_
  rw [Shape.rowMajor_val_one, Shape.rowMajor_val_two]
  show c.val = 0 * 128 + c.val
  omega

/-- The kernel program's result is the reference's result. -/
theorem result_eq : result x w b vals rows cols = val_main_v34 (F := Ideal) x w b vals rows cols := by
  funext i
  rw [val_main_v34_apply, val_main_v31_apply, val_main_v29_apply, val_main_v28_apply, val_main_v26_apply,
    val_main_v23_apply, val_main_v25_apply, val_main_v33_apply, val_main_v32_apply, val_main_v30_apply,
    val_main_v27_apply, val_main_v24_apply, val_main_v22_apply, val_main_cst_3_apply, val_main_cst_4_apply,
    val_main_cst_5_apply, val_main_cst_6_apply, product_eq, aggregate_eq]
  unfold result blend
  show ((5 / 6 : ℝ) : EReal) * support x w i
      + ((1 / 6 : ℝ) : EReal) * aggregate (scaled x w (degreeColumn vals cols)) vals rows cols i
      + biasRow b (ix2 (0 : Fin 1) (col i))
    = Ideal.div (support x w i + Ideal.ofBits .f32 0x3F000000#32
          * (Ideal.ofBits .f32 0x3F000000#32 * support x w i
            + Ideal.ofBits .f32 0x3F000000#32 * aggregate (scaled x w (degreeColumn vals cols)) vals rows cols i))
        (Ideal.ofBits .f32 0x3FC00000#32)
      + b (idx_main_v32 (idx_main_v33 i))
  have e : idx_main_v32 (idx_main_v33 i) = ix1 (col i) := funext fun a => by
    match a with
    | ⟨0, _⟩ => rfl
  rw [Cert.Blend.ofBits_half, Cert.Blend.ofBits_three_halves, ← Cert.Blend.blend_law, bias_eq, e]

end Cert.Bridge

end
-- ==== Proof.lean ====
/-
  A graph-convolution layer with a residual blend, computed two ways, ends with the same array over the extended reals.

  The layer: s = x · w (node features projected); each node's degree is the sum of the weights of the edges whose
  column index names it, and d is its reciprocal; a = the sum over edges e with row index i of vals(e) · (d · s)(cols(e));
  the result is a blend of s and a plus a bias. The kernel program computes s and d · s in one tiled kernel (a matrix
  product per block of 4000 rows), aggregates with plain array operations, and blends with the folded coefficients
  (5/6) s + (1/6) a + bias in a second tiled kernel; the reference computes (s + ½ (½ s + ½ a)) / (3/2) + bias.

  The two frames of the kernel program are the generated ones; the reference's frame is its generated run. The two named
  coefficients are the rationals 5/6 and 1/6 by the certificate's table. For the value claim: each kernel's result arrays
  are read off its 25 row blocks as whole-array functions of what the kernel was entered with (FirstRegion, SecondRegion
  over BlockTerms), the plain operations around them are read at arbitrary contents (HostStretches), the buffers are
  followed through the program (KernelValue), and the resulting function of the six arguments is the reference's
  (Bridge, over the law of Blend); no finiteness of the inputs is used.
-/
import proofs.«102144_j52613349376871_1_alg».proof.Defs
import proofs.«102144_j52613349376871_1_alg».proof.Proof.Gen.Kernel
import proofs.«102144_j52613349376871_1_alg».proof.Proof.Gen.Kernel.Skeleton
import proofs.«102144_j52613349376871_1_alg».proof.Proof.Gen.Kernel.Launch
import proofs.«102144_j52613349376871_1_alg».proof.Proof.Gen.Kernel.Points
import proofs.«102144_j52613349376871_1_alg».proof.Proof.Gen.Kernel.Frame
import proofs.«102144_j52613349376871_1_alg».proof.Proof.Gen.KernelIdeal
import proofs.«102144_j52613349376871_1_alg».proof.Proof.Gen.KernelIdeal.Skeleton
import proofs.«102144_j52613349376871_1_alg».proof.Proof.Gen.KernelIdeal.Launch
import proofs.«102144_j52613349376871_1_alg».proof.Proof.Gen.KernelIdeal.Points
import proofs.«102144_j52613349376871_1_alg».proof.Proof.Gen.KernelIdeal.Frame
import proofs.«102144_j52613349376871_1_alg».proof.Proof.Gen.ReferenceIdeal
import proofs.«102144_j52613349376871_1_alg».proof.Proof.Gen.Pre_finite_inputs
import proofs.«102144_j52613349376871_1_alg».proof.Proof.Gen.ReferenceIdeal.Run
import proofs.«102144_j52613349376871_1_alg».proof.Proof.Gen.ReferenceIdeal.Read
import proofs.«102144_j52613349376871_1_alg».proof.Proof.FrameResult
import proofs.«102144_j52613349376871_1_alg».proof.Proof.KernelValue
import proofs.«102144_j52613349376871_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The two folded coefficients denote 5/6 and 1/6: the table's entries. -/
theorem preserves : Cert.preserves_Kernel_KernelIdeal :=
  ⟨IdealRules.named_const.statement Cert.KernelIdeal.κ "c_5_6" .f32 0x3F555555#32 ((5 / 6 : ℝ) : EReal) rfl,
   IdealRules.named_const.statement Cert.KernelIdeal.κ "inv_6" .f32 0x3E2AAAAB#32 ((1 / 6 : ℝ) : EReal) rfl⟩

/-- Both programs end with the blend of the projected features, their degree-scaled aggregate and the bias. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Result.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.final_result m ρ c), (h c).2⟩)
      (Cert.KernelIdeal.GenP.frame_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, (hagree c).1, (hagree c).2.1, (hagree c).2.2.1, (hagree c).2.2.2.1,
      (hagree c).2.2.2.2.1, (hagree c).2.2.2.2.2]
    exact (Cert.Bridge.result_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
